-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3 : Shape := ⟨2, ![2048, 3]⟩
abbrev S2048 : Shape := ⟨1, ![2048]⟩
abbrev S16 : Shape := ⟨1, ![16]⟩
abbrev S_ : Shape := ⟨0, ![]⟩

class Facts : Prop where
  bcast_S_S2048x3 : S_.BroadcastsInDim S2048x3 (![] : Fin 0 → Fin S2048x3.rank)
  reducesTo_S2048x3_S_d0_1 : S2048x3.ReducesTo [0, 1] S_
  h_S_ : 0 < S_.numel
  bcast_S_S16 : S_.BroadcastsInDim S16 (![] : Fin 0 → Fin S16.rank)
  reducesTo_S16_S_d0 : S16.ReducesTo [0] S_
  reducesTo_S_S_d : S_.ReducesTo [] S_

variable [Facts]

def fn {F : FTy → Type} [FloatOps F] (main_arg0 : FVec F S2048x3 .f32) (main_arg1 : IVec S2048 32) (main_arg2 : FVec F S16 .f32) (main_arg3 : FVec F S_ .f32) : IVec S_ 1 :=
  let main_v0 : FVec F S2048x3 .f32 := Host.absf main_arg0
  let main_cst : FVec F S_ .f32 := constant S_ .f32 0x7F800000#32
  let main_v1 : FVec F S2048x3 .f32 := broadcastInDim S2048x3 ![] bcast_S_S2048x3 main_cst
  let main_v2 : IVec S2048x3 1 := cmpf .olt main_v0 main_v1
  let main_c : IVec S_ 1 := constantI S_ 1 1#1
  let main_v3 : IVec S_ 1 := (fun x v => Host.reduce IntOp.andi x v reducesTo_S2048x3_S_d0_1 h_S_) main_v2 main_c
  let main_v4 : FVec F S16 .f32 := Host.absf main_arg2
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_cst_4 : FVec F S_ .f32 := constant S_ .f32 0x00000000#32
  let main_v13 : IVec S_ 1 := cmpf .une main_arg3 main_cst_4
  let main_c_5 : IVec S_ 1 := constantI S_ 1 1#1
  let main_v14 : IVec S_ 1 := (fun x v => Host.reduce IntOp.andi x v reducesTo_S_S_d h_S_) main_v13 main_c_5
  let main_v15 : IVec S_ 1 := andi main_v12 main_v14
  main_v15
-- ==== Kernel.lean ====
abbrev S2048x3 : Shape := ⟨2, ![2048, 3]⟩
abbrev S2048 : Shape := ⟨1, ![2048]⟩
abbrev S16 : Shape := ⟨1, ![16]⟩
abbrev S_ : Shape := ⟨0, ![]⟩
abbrev S3x2048 : Shape := ⟨2, ![3, 2048]⟩
abbrev S2048x1 : Shape := ⟨2, ![2048, 1]⟩
abbrev S1x2048 : Shape := ⟨2, ![1, 2048]⟩
abbrev S16x1 : Shape := ⟨2, ![16, 1]⟩
abbrev S1x1 : Shape := ⟨2, ![1, 1]⟩
abbrev S2048x2048 : Shape := ⟨2, ![2048, 2048]⟩
abbrev S2048x16x2048 : Shape := ⟨3, ![2048, 16, 2048]⟩
abbrev S256x3 : Shape := ⟨2, ![256, 3]⟩
abbrev S3x256 : Shape := ⟨2, ![3, 256]⟩
abbrev S256x1 : Shape := ⟨2, ![256, 1]⟩
abbrev S1x256 : Shape := ⟨2, ![1, 256]⟩
abbrev S256x256 : Shape := ⟨2, ![256, 256]⟩
abbrev S256x16x256 : Shape := ⟨3, ![256, 16, 256]⟩
abbrev S256x1x256 : Shape := ⟨3, ![256, 1, 256]⟩
abbrev S1x16x1 : Shape := ⟨3, ![1, 16, 1]⟩
abbrev S2048x2048x16 : Shape := ⟨3, ![2048, 2048, 16]⟩

abbrev nBuf : Space → Nat
  | .hbm => 21
  | .vmem => 14
  | .smem => 0
  | _ => 0

abbrev bufTy : (tb : Table) → Fin (tcTables nBuf tb) → BufTy
  | .hbm, ⟨0, _⟩ => ⟨S2048x3, .f32⟩
  | .hbm, ⟨1, _⟩ => ⟨S2048, .i32⟩
  | .hbm, ⟨2, _⟩ => ⟨S16, .f32⟩
  | .hbm, ⟨3, _⟩ => ⟨S_, .f32⟩
  | .hbm, ⟨4, _⟩ => ⟨S3x2048, .f32⟩
  | .hbm, ⟨5, _⟩ => ⟨S2048x1, .i32⟩
  | .hbm, ⟨6, _⟩ => ⟨S1x2048, .i32⟩
  | .hbm, ⟨7, _⟩ => ⟨S16x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S2048x2048, .i32⟩
  | .hbm, ⟨15, _⟩ => ⟨S2048x16x2048, .f32⟩
  | .hbm, ⟨16, _⟩ => ⟨S_, .i32⟩
  | .hbm, ⟨17, _⟩ => ⟨S2048x2048, .i32⟩
  | .hbm, ⟨18, _⟩ => ⟨S2048x2048, .i1⟩
  | .hbm, ⟨19, _⟩ => ⟨S2048x2048, .i1⟩
  | .hbm, ⟨20, _⟩ => ⟨S2048x2048x16, .f32⟩
  | .local _ .vmem, ⟨0, _⟩ => ⟨S256x3, .f32⟩
  | .local _ .vmem, ⟨1, _⟩ => ⟨S256x3, .f32⟩
  | .local _ .vmem, ⟨2, _⟩ => ⟨S3x256, .f32⟩
  | .local _ .vmem, ⟨3, _⟩ => ⟨S3x256, .f32⟩
  | .local _ .vmem, ⟨4, _⟩ => ⟨S256x1, .i32⟩
  | .local _ .vmem, ⟨5, _⟩ => ⟨S256x1, .i32⟩
  | .local _ .vmem, ⟨6, _⟩ => ⟨S1x256, .i32⟩
  | .local _ .vmem, ⟨7, _⟩ => ⟨S1x256, .i32⟩
  | .local _ .vmem, ⟨8, _⟩ => ⟨S16x1, .f32⟩
  | .local _ .vmem, ⟨9, _⟩ => ⟨S1x1, .f32⟩
  | .local _ .vmem, ⟨10, _⟩ => ⟨S256x256, .i32⟩
  | .local _ .vmem, ⟨11, _⟩ => ⟨S256x256, .i32⟩
  | .local _ .vmem, ⟨12, _⟩ => ⟨S256x16x256, .f32⟩
  | .local _ .vmem, ⟨13, _⟩ => ⟨S256x16x256, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S2048x3_S3x2048_1_0 : S2048x3.Transposes [1, 0] S3x2048
  shapeCasts_S2048_S2048x1 : S2048.ShapeCasts S2048x1
  shapeCasts_S2048_S1x2048 : S2048.ShapeCasts S1x2048
  shapeCasts_S16_S16x1 : S16.ShapeCasts S16x1
  shapeCasts_S_S1x1 : S_.ShapeCasts S1x1
  inb_S256x3_S256x3_0_0 : ∀ a, (![0, 0] : Fin 2 → Nat) a + S256x3.size a ≤ S256x3.size a
  h_S256x3 : 0 < S256x3.numel
  inb_S3x256_S3x256_0_0 : ∀ a, (![0, 0] : Fin 2 → Nat) a + S3x256.size a ≤ S3x256.size a
  h_S3x256 : 0 < S3x256.numel
  shapeCasts_S3x256_S3x256 : S3x256.ShapeCasts S3x256
  slices_S256x3_o0_0_S256x1 : S256x3.Slices ![0, 0] S256x1
  slices_S3x256_o0_0_S1x256 : S3x256.Slices ![0, 0] S1x256
  broadcasts_S256x1_S256x256 : S256x1.Broadcasts S256x256
  broadcasts_S1x256_S256x256 : S1x256.Broadcasts S256x256
  slices_S256x3_o0_1_S256x1 : S256x3.Slices ![0, 1] S256x1
  slices_S3x256_o1_0_S1x256 : S3x256.Slices ![1, 0] S1x256
  slices_S256x3_o0_2_S256x1 : S256x3.Slices ![0, 2] S256x1
  slices_S3x256_o2_0_S1x256 : S3x256.Slices ![2, 0] S1x256
  iota_S256x1_d0_w32 : S256x1.Iotas .tc 32 [0]
  iota_S1x256_d1_w32 : S1x256.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  natLt_1_32 : 1 < 32
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S256x256_S256x1x256 : S256x256.ShapeCasts S256x1x256
  shapeCasts_S16x1_S1x16x1 : S16x1.ShapeCasts S1x16x1
  broadcasts_S256x1x256_S256x16x256 : S256x1x256.Broadcasts S256x16x256
  broadcasts_S1x16x1_S256x16x256 : S1x16x1.Broadcasts S256x16x256
  inb_S256x16x256_S256x16x256_0_0_0 : ∀ a, (![0, 0, 0] : Fin 3 → Nat) a + S256x16x256.size a ≤ S256x16x256.size a
  h_S256x16x256 : 0 < S256x16x256.numel
  bcast_S_S2048x2048 : S_.BroadcastsInDim S2048x2048 (![] : Fin 0 → Fin S2048x2048.rank)
  transposes_S2048x16x2048_S2048x2048x16_0_2_1 : S2048x16x2048.Transposes [0, 2, 1] S2048x2048x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S2048x3.size a
  hwx0_0 : ∀ i : grid0.Coords, EltTy.bits .f32 = 32 ∨ (Rect.block (s := S2048x3) S256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x256.size a ≤ S3x2048.size a
  hwx0_1 : ∀ i : grid0.Coords, EltTy.bits .f32 = 32 ∨ (Rect.block (s := S3x2048) S3x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .i32 = 32 ∨ (Rect.block (s := S2048x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x2048.size a
  hwx0_3 : ∀ i : grid0.Coords, EltTy.bits .i32 = 32 ∨ (Rect.block (s := S1x2048) S1x256.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S2048x2048.size a
  hwx0_6 : ∀ i : grid0.Coords, EltTy.bits .i32 = 32 ∨ (Rect.block (s := S2048x2048) S256x256.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x16x256.size a ≤ S2048x16x2048.size a
  hwx0_7 : ∀ i : grid0.Coords, EltTy.bits .f32 = 32 ∨ (Rect.block (s := S2048x16x2048) S256x16x256.size (cc0_transform_7 i) (hinb0_7 i)).WholeWords (EltTy.packing .f32)

variable [Facts₀]

abbrev win0_0 : Pipeline.Window sig grid0 :=
  Pipeline.Window.ofSpec (Memref.whole main_arg0) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S256x16x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x3 : Shape := ⟨2, ![2048, 3]⟩
abbrev S2048 : Shape := ⟨1, ![2048]⟩
abbrev S16 : Shape := ⟨1, ![16]⟩
abbrev S_ : Shape := ⟨0, ![]⟩
abbrev S2048x1x3 : Shape := ⟨3, ![2048, 1, 3]⟩
abbrev S1x2048x3 : Shape := ⟨3, ![1, 2048, 3]⟩
abbrev S2048x2048x3 : Shape := ⟨3, ![2048, 2048, 3]⟩
abbrev S2048x2048 : Shape := ⟨2, ![2048, 2048]⟩
abbrev S2048x1 : Shape := ⟨2, ![2048, 1]⟩
abbrev S1x2048 : Shape := ⟨2, ![1, 2048]⟩
abbrev S2048x2048x1 : Shape := ⟨3, ![2048, 2048, 1]⟩
abbrev S1x1x16 : Shape := ⟨3, ![1, 1, 16]⟩
abbrev S2048x2048x16 : Shape := ⟨3, ![2048, 2048, 16]⟩

abbrev nBuf : Space → Nat
  | .hbm => 49
  | .vmem => 0
  | .smem => 0
  | _ => 0

abbrev bufTy : (tb : Table) → Fin (tcTables nBuf tb) → BufTy
  | .hbm, ⟨0, _⟩ => ⟨S2048x3, .f32⟩
  | .hbm, ⟨1, _⟩ => ⟨S2048, .i32⟩
  | .hbm, ⟨2, _⟩ => ⟨S16, .f32⟩
  | .hbm, ⟨3, _⟩ => ⟨S_, .f32⟩
  | .hbm, ⟨4, _⟩ => ⟨S2048, .i32⟩
  | .hbm, ⟨5, _⟩ => ⟨S2048x1x3, .f32⟩
  | .hbm, ⟨6, _⟩ => ⟨S1x2048x3, .f32⟩
  | .hbm, ⟨7, _⟩ => ⟨S2048x2048x3, .f32⟩
  | .hbm, ⟨8, _⟩ => ⟨S2048x2048x3, .f32⟩
  | .hbm, ⟨9, _⟩ => ⟨S2048x2048x3, .f32⟩
  | .hbm, ⟨10, _⟩ => ⟨S_, .f32⟩
  | .hbm, ⟨11, _⟩ => ⟨S2048x2048x3, .f32⟩
  | .hbm, ⟨12, _⟩ => ⟨S2048x2048x3, .f32⟩
  | .hbm, ⟨13, _⟩ => ⟨S2048x2048x3, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x1, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2048x1, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S2048x2048, .i1⟩
  | .hbm, ⟨28, _⟩ => ⟨S_, .f32⟩
  | .hbm, ⟨29, _⟩ => ⟨S2048x2048, .f32⟩
  | .hbm, ⟨30, _⟩ => ⟨S2048x2048, .i1⟩
  | .hbm, ⟨31, _⟩ => ⟨S2048x2048, .i1⟩
  | .hbm, ⟨32, _⟩ => ⟨S2048x2048x1, .f32⟩
  | .hbm, ⟨33, _⟩ => ⟨S1x1x16, .f32⟩
  | .hbm, ⟨34, _⟩ => ⟨S2048x2048x16, .f32⟩
  | .hbm, ⟨35, _⟩ => ⟨S2048x2048x16, .f32⟩
  | .hbm, ⟨36, _⟩ => ⟨S2048x2048x16, .f32⟩
  | .hbm, ⟨37, _⟩ => ⟨S2048x2048x16, .f32⟩
  | .hbm, ⟨38, _⟩ => ⟨S2048x2048x16, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048x2048x16, .f32⟩
  | .hbm, ⟨43, _⟩ => ⟨S2048x2048x16, .f32⟩
  | .hbm, ⟨44, _⟩ => ⟨S2048x2048x16, .f32⟩
  | .hbm, ⟨45, _⟩ => ⟨S2048x2048x1, .i1⟩
  | .hbm, ⟨46, _⟩ => ⟨S2048x2048x1, .f32⟩
  | .hbm, ⟨47, _⟩ => ⟨S2048x2048x16, .f32⟩
  | .hbm, ⟨48, _⟩ => ⟨S2048x2048x16, .f32⟩
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]

class Facts₀ : Prop where
  bcast_S2048x3_S2048x1x3_0_2 : S2048x3.BroadcastsInDim S2048x1x3 (![0, 2] : Fin 2 → Fin S2048x1x3.rank)
  bcast_S2048x3_S1x2048x3_1_2 : S2048x3.BroadcastsInDim S1x2048x3 (![1, 2] : Fin 2 → Fin S1x2048x3.rank)
  bcast_S2048x1x3_S2048x2048x3_0_1_2 : S2048x1x3.BroadcastsInDim S2048x2048x3 (![0, 1, 2] : Fin 3 → Fin S2048x2048x3.rank)
  bcast_S1x2048x3_S2048x2048x3_0_1_2 : S1x2048x3.BroadcastsInDim S2048x2048x3 (![0, 1, 2] : Fin 3 → Fin S2048x2048x3.rank)
  bcast_S_S2048x2048x3 : S_.BroadcastsInDim S2048x2048x3 (![] : Fin 0 → Fin S2048x2048x3.rank)
  reducesTo_S2048x2048x3_S2048x2048_d2 : S2048x2048x3.ReducesTo [2] S2048x2048
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S16_S1x1x16_2 : S16.BroadcastsInDim S1x1x16 (![2] : Fin 1 → Fin S1x1x16.rank)
  bcast_S2048x2048x1_S2048x2048x16_0_1_2 : S2048x2048x1.BroadcastsInDim S2048x2048x16 (![0, 1, 2] : Fin 3 → Fin S2048x2048x16.rank)
  bcast_S1x1x16_S2048x2048x16_0_1_2 : S1x1x16.BroadcastsInDim S2048x2048x16 (![0, 1, 2] : Fin 3 → Fin S2048x2048x16.rank)
  bcast_S_S2048x2048x16 : S_.BroadcastsInDim S2048x2048x16 (![] : Fin 0 → Fin S2048x2048x16.rank)

variable [Facts₀]

class Facts : Prop extends Facts₀ where

variable [Facts]
-- ==== Proof.Spec.lean ====
/-
  The radius-graph edge features as scalar functions of the argument arrays, on the extended reals.

  For points a, b (rows of `pos`, 2048 of them in ℝ³) the displacement on axis k is
  `pos[a,k] - pos[b,k] + ε` with ε the f32 word of 1e-10, and the distance is the square root of the sum of the three
  squares. The pair (a, b) is an edge when a ≠ b, the two points lie in the same graph (`batch[a] = batch[b]`) and the
  distance is below the cutoff 8. The k-th radial feature of the pair is
  `exp (-(dist - c_k)² / (2 w²))` when the pair is an edge and 0 otherwise, written as a product with the edge bit read
  as the number 0 or 1.

  Also here: the laws on the extended reals that join the two ways the programs spell this. The one that matters:
  multiplying by the reciprocal `1 / (2 w w)` is dividing by `2 (w w)` — true exactly when the divisor is not zero, that
  is when `w ≠ 0` (at `w = 0` the product reads `0 · ⊤ = 0` and the quotient `0 / 0 = ⊥`, and the two differ).
-/
import Idealize.ShloMosaic.PureOps.Ideal
import Idealize.ShloMosaic.PureOps.Ideal.Laws
import Idealize.ShloMosaic.Lib.ValueIdx
import Idealize.ShloMosaic.Lib.IdealHost

noncomputable section

namespace Cert.EdgeSpec

open Idealize.ShloMosaic Idealize.ShloMosaic.ValueIdx

/-- The argument arrays at the ideal instance: points, graph ids, centers, width. -/
abbrev Pos := (⟨2, ![2048, 3]⟩ : Shape).Idx → EReal
abbrev Batch := (⟨1, ![2048]⟩ : Shape).Idx → BitVec 32
abbrev Cen := (⟨1, ![16]⟩ : Shape).Idx → EReal
abbrev Wid := (⟨0, ![]⟩ : Shape).Idx → EReal

/-- ε, the f32 word of 1e-10; the cutoff 8; the factor 2; the zero word. Kept as words: the same word on both sides is
    never evaluated. -/
abbrev eps : EReal := Ideal.ofBits .f32 0x2EDBE6FF#32
abbrev cutoff : EReal := Ideal.ofBits .f32 0x41000000#32
abbrev two : EReal := Ideal.ofBits .f32 0x40000000#32

/-- The displacement from point `b` to point `a` on axis `k`, shifted by ε. -/
def dcomp (pos : Pos) (a b : Fin 2048) (k : Fin 3) : EReal := pos (ix2 a k) - pos (ix2 b k) + eps

/-- The distance between points `a` and `b`: the root of the three squares' sum, summed left to right. -/
def dist (pos : Pos) (a b : Fin 2048) : EReal :=
  Ideal.sqrt (dcomp pos a b 0 * dcomp pos a b 0 + dcomp pos a b 1 * dcomp pos a b 1 + dcomp pos a b 2 * dcomp pos a b 2)

/-- The edge bit of the pair: distinct points, of one graph, closer than the cutoff. -/
def edge (pos : Pos) (batch : Batch) (a b : Fin 2048) : BitVec 1 :=
  IntOp.andi (IntOp.andi (IntOp.cmpi .ne (BitVec.ofNat 32 a.val) (BitVec.ofNat 32 b.val))
      (IntOp.cmpi .eq (batch (ix1 a)) (batch (ix1 b))))
    (FloatOps.cmpf (F := Ideal) (φ := .f32) .olt (dist pos a b) cutoff)

/-- The squared offset of the distance from center `k`, negated. -/
def negsq (pos : Pos) (cen : Cen) (a b : Fin 2048) (k : Fin 16) : EReal :=
  -((dist pos a b - cen (ix1 k)) * (dist pos a b - cen (ix1 k)))

/-- The k-th radial feature of the pair (a, b): the Gaussian of the distance about center `k`, times the edge bit. -/
def rbf (pos : Pos) (batch : Batch) (cen : Cen) (wid : Wid) (a b : Fin 2048) (k : Fin 16) : EReal :=
  Ideal.exp (Ideal.div (negsq pos cen a b k) (two * (wid ix0 * wid ix0))) * (((edge pos batch a b).toNat : ℝ) : EReal)

/-! ## The laws -/

/-- The word `0x40000000` is the real 2. -/
theorem two_eq : two = ((2 : ℝ) : EReal) := by
  unfold two
  simp [Ideal.ofBits, Ideal.ieee, -EReal.coe_mul]; norm_num

theorem two_ne_zero : two ≠ 0 := by
  rw [two_eq]; exact EReal.coe_ne_zero.mpr (by norm_num)

/-- The divisor `2 (w w)` is zero only at `w = 0`. -/
theorem denom_ne_zero {w : EReal} (hw : w ≠ 0) : two * (w * w) ≠ 0 :=
  mul_ne_zero two_ne_zero (mul_ne_zero hw hw)

/-- THE LAW that joins the two programs: a product with the reciprocal `1 / ((2 w) w)` is the quotient by `2 (w w)`,
    for `w ≠ 0`. -/
theorem scale_eq {w : EReal} (hw : w ≠ 0) (x : EReal) :
    x * Ideal.div (Ideal.ofBits .f32 0x3F800000#32) (two * w * w) = Ideal.div x (two * (w * w)) := by
  rw [Ideal.ofBits_one_f32, mul_assoc, Ideal.mul_one_div (denom_ne_zero hw)]

/-- Zero minus `x` is `-x`: how the kernel negates. -/
theorem zero_word_sub (x : EReal) : Ideal.ofBits .f32 0x00000000#32 - x = -x := by
  rw [Ideal.ofBits_zero_f32, zero_sub]

/-- A bit read as a number: widened to 32 bits and read signed, or read unsigned, it is 0 or 1 either way. -/
theorem bit_signed_eq_unsigned (b : BitVec 1) : (((b.setWidth 32).toInt : ℝ) : EReal) = ((b.toNat : ℝ) : EReal) := by
  have h : (b.setWidth 32).toInt = (b.toNat : Int) := by
    rcases (by decide : ∀ b : BitVec 1, b = 0#1 ∨ b = 1#1) b with rfl | rfl <;> decide
  rw [h]; norm_cast

/-- A 32-bit widening of a bit is not zero exactly when the bit is set. -/
theorem widened_ne_zero (b : BitVec 1) : IntOp.cmpi .ne (b.setWidth 32) 0#32 = b := by
  rcases (by decide : ∀ b : BitVec 1, b = 0#1 ∨ b = 1#1) b with rfl | rfl <;> decide

end Cert.EdgeSpec

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibMiddleAxis.lean ====
/-
  A unit axis in the middle, and the two ways a rank-3 broadcast fills around it, read at an index.

  A matrix `[a, c]` viewed as `[a, 1, c]` has, at `(p, u, q)`, the matrix entry `(p, q)`; repeated `b` times along
  the middle axis it has, at `(p, k, q)`, the entry `(p, q)` still. A column `[b, 1]` viewed as `[1, b, 1]` has, at
  `(u, k, u')`, the column's entry `k`; repeated along the first and last axes to `[a, b, c]` it has, at `(p, k, q)`,
  the entry `k`. Together: a table `f(p, q) ∘ g(k)` laid out with `k` on the middle axis. Last, the one element of a
  `[1, 1]` array taken out by position.
-/
import Idealize.ShloMosaic.Lib.ValueIdx
import Idealize.ShloMosaic.Lib.Pipeline.Value

namespace Cert.LibMiddleAxis

open Idealize.ShloMosaic Idealize.ShloMosaic.ValueIdx

variable {α : Type}

/-- An `[a, c]` array cast to `[a, 1, c]` reads, at `(p, u, q)`, the operand at `(p, q)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- A `[b, 1]` column cast to `[1, b, 1]` reads, at `(u, k, u')`, the column's entry `k`. -/
theorem shapeCast_b1_1b1_apply {b : ℕ} (x : (⟨2, ![b, 1]⟩ : Shape).Idx → α)
    (h : (⟨2, ![b, 1]⟩ : Shape).ShapeCasts ⟨3, ![1, b, 1]⟩) (u : Fin 1) (k : Fin b) (u' : Fin 1) :
    shapeCast ⟨3, ![1, b, 1]⟩ x h (ix3 u k u') = x (ix2 k (0 : Fin 1)) :=
  shapeCast_apply x h _ _ (by
    have hu : u.val = 0 := by omega
    have hu' : u'.val = 0 := by omega
    rw [Shape.rowMajor_val_three, Shape.rowMajor_val_two]
    show k.val * 1 + 0 = (u.val * b + k.val) * 1 + u'.val
    rw [hu, hu', Nat.zero_mul, Nat.zero_add])

/-- An `[a, 1, c]` array broadcast to `[a, b, c]` reads, at `(p, k, q)`, the operand at `(p, 0, q)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ v h (ix3 p k q) = v (ix3 p (0 : Fin 1) q) := by
  refine broadcastTo_apply v h (ix3 p k q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A `[1, b, 1]` array broadcast to `[a, b, c]` reads, at `(p, k, q)`, the operand at `(0, k, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (k : Fin b) (q : Fin c) :
    broadcastTo ⟨3, ![a, b, c]⟩ v h (ix3 p k q) = v (ix3 (0 : Fin 1) k (0 : Fin 1)) := by
  refine broadcastTo_apply v h (ix3 p k q) (ix3 (0 : Fin 1) k (0 : Fin 1)) fun ax => ?_
  match ax with
  | ⟨0, _⟩ => rfl
  | ⟨1, _⟩ =>
    show k.val = if b = 1 then 0 else k.val
    split
    · have := k.isLt; omega
    · rfl
  | ⟨2, _⟩ => rfl

/-- The element of a `[1, 1]` array taken out at position (0, 0) is its entry `(0, 0)`. -/
theorem extractAt_11 (x : (⟨2, ![1, 1]⟩ : Shape).Idx → α)
    (h : ∀ d, (![0, 0] : Fin 2 → Nat) d < (⟨2, ![1, 1]⟩ : Shape).size d) :
    extractAt ![0, 0] x h = x (ix2 (0 : Fin 1) (0 : Fin 1)) := by
  unfold extractAt
  exact congrArg x (funext fun d => Fin.ext (by match d with | ⟨0, _⟩ => rfl | ⟨1, _⟩ => rfl))

end Cert.LibMiddleAxis
-- ==== Proof.Payload.lean ====
/-
  The kernel body's arithmetic at one entry of a block.

  A grid point works on a 256 × 256 tile of pairs: rows p of a 256 × 3 block of points, columns q of a 3 × 256 block of
  the transposed points. Read at (p, q) the body's distance term is the root of the three squared displacements
  `x0[p,k] - x1[k,q] + ε`; its diagonal test compares the global row `256·i₀ + p` with the global column `256·i₁ + q`
  (this is where the body reads the grid position); its edge bit is the conjunction of the diagonal test, the equality of
  the two graph ids and the cutoff test; what it stores in the mask tile is that bit widened to 32 bits; and what it
  stores at (p, k, q) of the feature tile is `exp ((0 - (d - c_k)²) · s) · bit`, `s` the scale the body is handed.

  Every layout step (a column or a row of a block repeated across the tile, a unit axis put in the middle) reads its
  operand at the evident coordinates; everything else is pointwise.
-/
import proofs.«156684_j67095979099194_2_alg».proof.Proof.Gen.KernelIdeal.Skeleton
import proofs.«156684_j67095979099194_2_alg».proof.Proof.Spec
import proofs.«156684_j67095979099194_2_alg».proof.Proof.LibColumn
import proofs.«156684_j67095979099194_2_alg».proof.Proof.LibMiddleAxis
import Idealize.ShloMosaic.Lib.ValueLayout
import Idealize.ShloMosaic.Lib.Pipeline.Value

noncomputable section

namespace Cert.KernelIdeal.EdgePayload

open Cert.KernelIdeal Cert.KernelIdeal.Gen Idealize.ShloMosaic Idealize.ShloMosaic.ValueIdx Cert.EdgeSpec
open Cert.LibColumn Cert.LibMiddleAxis

variable {α : Type}

/-! ## Pointwise operations at an index (each is its definition) -/

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem cmpi_apply {s : Shape} {w : Nat} (p : CmpIPredicate) (a b : IVec s w) (i : s.Idx) :
    cmpi p a b i = IntOp.cmpi p (a i) (b i) := rfl
theorem andi_apply {s : Shape} {w : Nat} (a b : IVec s w) (i : s.Idx) : andi a b i = IntOp.andi (a i) (b i) := rfl
theorem addi_apply {s : Shape} {w : Nat} (a b : IVec s w) (i : s.Idx) : addi a b i = a i + b i := rfl

/-! ## A column and a row of a block, repeated across the tile -/

/-- Column `k` of a 256 × 3 block, repeated along 256 columns, at (p, q): the block's entry (p, k). -/
theorem col_apply (o : Nat) (x : (⟨2, ![256, 3]⟩ : Shape).Idx → α)
    (h1 : (⟨2, ![256, 3]⟩ : Shape).Slices ![0, o] ⟨2, ![256, 1]⟩)
    (h2 : (⟨2, ![256, 1]⟩ : Shape).Broadcasts ⟨2, ![256, 256]⟩) (p q : Fin 256) (k : Fin 3) (hk : k.val = o) :
    broadcastTo ⟨2, ![256, 256]⟩ (extractStridedSlice ⟨2, ![256, 1]⟩ ![0, o] x h1) h2 (ix2 p q) = x (ix2 p k) := by
  rw [broadcastTo_a1_ab_apply, slice2_axis1_apply o x h1 p (0 : Fin 1) k hk]

/-- Row `k` of a 3 × 256 block, repeated along 256 rows, at (p, q): the block's entry (k, q). -/
theorem row_apply (o : Nat) (x : (⟨2, ![3, 256]⟩ : Shape).Idx → α)
    (h1 : (⟨2, ![3, 256]⟩ : Shape).Slices ![o, 0] ⟨2, ![1, 256]⟩)
    (h2 : (⟨2, ![1, 256]⟩ : Shape).Broadcasts ⟨2, ![256, 256]⟩) (p q : Fin 256) (k : Fin 3) (hk : k.val = o) :
    broadcastTo ⟨2, ![256, 256]⟩ (extractStridedSlice ⟨2, ![1, 256]⟩ ![o, 0] x h1) h2 (ix2 p q) = x (ix2 k q) := by
  rw [broadcastTo_1b_ab_apply, slice2_axis0_apply o x h1 (0 : Fin 1) q k hk]

/-! ## The distance -/

/-- The displacement on axis `k` between row `p` of the points block and column `q` of the transposed block. -/
def dloc (x0 : (⟨2, ![256, 3]⟩ : Shape).Idx → EReal) (x1 : (⟨2, ![3, 256]⟩ : Shape).Idx → EReal) (p q : Fin 256)
    (k : Fin 3) : EReal := x0 (ix2 p k) - x1 (ix2 k q) + eps

/-- The tile's distance at (p, q). -/
def distloc (x0 : (⟨2, ![256, 3]⟩ : Shape).Idx → EReal) (x1 : (⟨2, ![3, 256]⟩ : Shape).Idx → EReal) (p q : Fin 256) :
    EReal :=
  Ideal.sqrt (dloc x0 x1 p q 0 * dloc x0 x1 p q 0 + dloc x0 x1 p q 1 * dloc x0 x1 p q 1
    + dloc x0 x1 p q 2 * dloc x0 x1 p q 2)

theorem pay4_apply (x0 : Vec Ideal S256x3 .f32) (x1 : Vec Ideal S3x256 .f32) (p q : Fin 256) :
    k0_pay4 (F := Ideal) x0 x1 (ix2 p q) = distloc x0 x1 p q := by
  unfold k0_pay4
  simp only [shapeCast_self, sqrt_apply, addf_apply, mulf_apply, subf_apply, broadcast_apply,
    col_apply 0 x0 _ _ p q 0 rfl, col_apply 1 x0 _ _ p q 1 rfl, col_apply 2 x0 _ _ p q 2 rfl,
    row_apply 0 x1 _ _ p q 0 rfl, row_apply 1 x1 _ _ p q 1 rfl, row_apply 2 x1 _ _ p q 2 rfl]
  rfl

/-! ## The diagonal test -/

/-- A tile-local coordinate plus 256 times the tile's number, as 32-bit words, is the global coordinate's word. -/
theorem global_word (g p : Nat) :
    BitVec.ofNat 32 p + BitVec.ofNat 32 g * 256#32 = BitVec.ofNat 32 (g * 256 + p) := by
  rw [show (256#32 : BitVec 32) = BitVec.ofNat 32 256 from rfl, ← BitVec.ofNat_mul, ← BitVec.ofNat_add, Nat.add_comm]

theorem pay5_apply (i : grid0.Coords) (p q : Fin 256) :
    k0_pay5 i (ix2 p q)
      = IntOp.cmpi .ne (BitVec.ofNat 32 ((i 0).val * 256 + p.val)) (BitVec.ofNat 32 ((i 1).val * 256 + q.val)) := by
  unfold k0_pay5
  simp only [cmpi_apply, addi_apply, broadcast_apply, broadcastTo_a1_ab_apply, broadcastTo_1b_ab_apply]
  rw [iota_single_apply .tc S256x1 32 (0 : Fin 2) _ (ix2 p (0 : Fin 1)),
    iota_single_apply .tc S1x256 32 (1 : Fin 2) _ (ix2 (0 : Fin 1) q), ← global_word, ← global_word]
  rfl

/-! ## The edge bit and the mask tile -/

theorem pay1_apply (v29 : FVec Ideal S256x256 .f32) (v40 : IVec S256x256 1) (v42 : IVec S256x1 32) (v44 : IVec S1x256 32)
    (p q : Fin 256) :
    k0_pay1 (F := Ideal) v29 v40 v42 v44 (ix2 p q)
      = IntOp.andi (IntOp.andi (v40 (ix2 p q)) (IntOp.cmpi .eq (v42 (ix2 p (0 : Fin 1))) (v44 (ix2 (0 : Fin 1) q))))
          (FloatOps.cmpf (F := Ideal) (φ := .f32) .olt (v29 (ix2 p q)) cutoff) := by
  unfold k0_pay1
  simp only [andi_apply, cmpi_apply, cmpf_apply, broadcast_apply, broadcastTo_a1_ab_apply, broadcastTo_1b_ab_apply]
  rfl

theorem pay2_apply (v29 : FVec Ideal S256x256 .f32) (v40 : IVec S256x256 1) (v42 : IVec S256x1 32) (v44 : IVec S1x256 32)
    (j : S256x256.Idx) :
    k0_pay2 (F := Ideal) v29 v40 v42 v44 j = (k0_pay1 (F := Ideal) v29 v40 v42 v44 j).setWidth 32 := rfl

/-! ## The feature tile -/

theorem pay3_apply (v29 : FVec Ideal S256x256 .f32) (v40 : IVec S256x256 1) (v42 : IVec S256x1 32) (v44 : IVec S1x256 32)
    (v55 : Vec Ideal S16x1 .f32) (v57 : Vec Ideal S1x1 .f32) (p : Fin 256) (k : Fin 16) (q : Fin 256) :
    k0_pay3 (F := Ideal) v29 v40 v42 v44 v55 v57 (ix3 p k q)
      = Ideal.exp ((Ideal.ofBits .f32 0x00000000#32
            - (v29 (ix2 p q) - v55 (ix2 k (0 : Fin 1))) * (v29 (ix2 p q) - v55 (ix2 k (0 : Fin 1))))
          * v57 (ix2 (0 : Fin 1) (0 : Fin 1)))
        * ((((k0_pay1 (F := Ideal) v29 v40 v42 v44 (ix2 p q)).setWidth 32).toInt : ℝ) : EReal) := by
  unfold k0_pay3
  simp only [shapeCast_self, exp_apply, mulf_apply, subf_apply, broadcast_apply, sitofp_apply, extui_apply,
    broadcastTo_a1c_abc_apply, broadcastTo_1b1_abc_apply, shapeCast_ac_a1c_apply, shapeCast_b1_1b1_apply, extractAt_11]
  rfl

end Cert.KernelIdeal.EdgePayload

end
-- ==== Proof.Tile.lean ====
/-
  One tile of the kernel against the specification.

  Grid point (A, B) is handed rows `A·256 + p` of the points, columns `B·256 + q` of the transposed points, the graph ids
  of those rows and columns, all 16 centers, and the scale `s = 1 / ((2 w) w)`. Then at (p, q) its distance is the
  specification's distance between points `A·256 + p` and `B·256 + q`, its edge bit their edge bit, and at (p, k, q) its
  feature is their k-th radial feature: `exp ((0 - x) · s) = exp (-x / (2 (w w)))` by the scale law, which needs
  `w ≠ 0`, and the edge bit widened and read signed is the bit read unsigned.
-/
import proofs.«156684_j67095979099194_2_alg».proof.Proof.Payload

noncomputable section

namespace Cert.KernelIdeal.EdgeTile

open Cert.KernelIdeal Cert.KernelIdeal.Gen Idealize.ShloMosaic Idealize.ShloMosaic.ValueIdx Cert.EdgeSpec
open Cert.KernelIdeal.EdgePayload

/-- Entry `p` of tile number `A` along an axis of 8 tiles of 256: the global index `A·256 + p`. -/
def glob (A : Nat) (hA : A < 8) (p : Fin 256) : Fin 2048 := ⟨A * 256 + p.val, by have := p.isLt; omega⟩

/-- The mask array as the kernel writes it: the edge bit of (a, b), widened to 32 bits. -/
def maskArr (pos : Pos) (batch : Batch) : (⟨2, ![2048, 2048]⟩ : Shape).Idx → BitVec 32 :=
  fun i => (edge pos batch (i 0) (i 1)).setWidth 32

/-- The feature array as the kernel writes it, centers on the middle axis: at (a, k, b) the k-th feature of (a, b). -/
def rbfArr (pos : Pos) (batch : Batch) (cen : Cen) (wid : Wid) : (⟨3, ![2048, 16, 2048]⟩ : Shape).Idx → EReal :=
  fun i => rbf pos batch cen wid (i 0) (i 2) (i 1)

section Tile

variable (pos : Pos) (batch : Batch) (A B : Nat) (hA : A < 8) (hB : B < 8)
  (x0 : Vec Ideal S256x3 .f32) (x1 : Vec Ideal S3x256 .f32) (x2 : Vec Ideal S256x1 .i32) (x3 : Vec Ideal S1x256 .i32)
  (h0 : ∀ (p : Fin 256) (k : Fin 3), x0 (ix2 p k) = pos (ix2 (glob A hA p) k))
  (h1 : ∀ (k : Fin 3) (q : Fin 256), x1 (ix2 k q) = pos (ix2 (glob B hB q) k))
  (h2 : ∀ p : Fin 256, x2 (ix2 p (0 : Fin 1)) = batch (ix1 (glob A hA p)))
  (h3 : ∀ q : Fin 256, x3 (ix2 (0 : Fin 1) q) = batch (ix1 (glob B hB q)))

include h0 h1 in
/-- The tile's distance is the distance of the two global points. -/
theorem dist_tile (p q : Fin 256) : distloc x0 x1 p q = dist pos (glob A hA p) (glob B hB q) := by
  unfold distloc Cert.EdgeSpec.dist dloc dcomp
  simp only [h0, h1]

include h0 h1 h2 h3 in
/-- The tile's edge bit is the edge bit of the two global points. -/
theorem edge_tile (i : grid0.Coords) (hi0 : (i 0).val = A) (hi1 : (i 1).val = B) (p q : Fin 256) :
    k0_pay1 (F := Ideal) (k0_pay4 x0 x1) (k0_pay5 i) (k0_pay6 x2) (k0_pay7 x3) (ix2 p q)
      = edge pos batch (glob A hA p) (glob B hB q) := by
  rw [pay1_apply, pay4_apply, pay5_apply, dist_tile pos A B hA hB x0 x1 h0 h1, hi0, hi1]
  unfold k0_pay6 k0_pay7
  simp only [shapeCast_self, h2, h3]
  rfl

include h0 h1 h2 h3 in
/-- What the tile stores in the mask. -/
theorem mask_tile (i : grid0.Coords) (hi0 : (i 0).val = A) (hi1 : (i 1).val = B) (j : S256x256.Idx) :
    k0_pay2 (F := Ideal) (k0_pay4 x0 x1) (k0_pay5 i) (k0_pay6 x2) (k0_pay7 x3) j
      = (edge pos batch (glob A hA (j 0)) (glob B hB (j 1))).setWidth 32 := by
  obtain ⟨p, q, rfl⟩ : ∃ (p q : Fin 256), j = ix2 p q := ⟨j 0, j 1, eq_ix2 j⟩
  rw [pay2_apply, edge_tile pos batch A B hA hB x0 x1 x2 x3 h0 h1 h2 h3 i hi0 hi1]

variable (cen : Cen) (wid : Wid) (x4 : Vec Ideal S16x1 .f32) (x5 : Vec Ideal S1x1 .f32)
  (h4 : ∀ k : Fin 16, x4 (ix2 k (0 : Fin 1)) = cen (ix1 k))
  (h5 : x5 (ix2 (0 : Fin 1) (0 : Fin 1))
    = Ideal.div (Ideal.ofBits .f32 0x3F800000#32) (two * wid ix0 * wid ix0))
  (hw : wid ix0 ≠ 0)

include h0 h1 h2 h3 h4 h5 hw in
/-- What the tile stores in the features: the specification's feature, for a width that is not zero. -/
theorem rbf_tile (i : grid0.Coords) (hi0 : (i 0).val = A) (hi1 : (i 1).val = B) (j : S256x16x256.Idx) :
    k0_pay3 (F := Ideal) (k0_pay4 x0 x1) (k0_pay5 i) (k0_pay6 x2) (k0_pay7 x3) x4 x5 j
      = rbf pos batch cen wid (glob A hA (j 0)) (glob B hB (j 2)) (j 1) := by
  obtain ⟨p, k, q, rfl⟩ : ∃ (p : Fin 256) (k : Fin 16) (q : Fin 256), j = ix3 p k q := ⟨j 0, j 1, j 2, eq_ix3 j⟩
  rw [pay3_apply, edge_tile pos batch A B hA hB x0 x1 x2 x3 h0 h1 h2 h3 i hi0 hi1, pay4_apply,
    dist_tile pos A B hA hB x0 x1 h0 h1, h4, h5, zero_word_sub, scale_eq hw, bit_signed_eq_unsigned]
  rfl

end Tile

end Cert.KernelIdeal.EdgeTile

end
-- ==== Proof.Blocks.lean ====
/-
  From tiles to arrays.

  Before the region the host lays the arguments out for the kernel: the points transposed to 3 × 2048, the graph ids as
  a column and as a row, the centers as a column, and the scale `1 / ((2 w) w)` as a 1 × 1 array. Grid point t = (A, B)
  of the 8 × 8 grid then reads rows `A·256 + p` of the points, columns `B·256 + q` of the transposed points, the ids
  of those rows and columns, every center and the scale; so by the tile lemmas what it writes back is tile (A, B) of ONE
  mask array and tile (A, ·, B) of ONE feature array, both functions of the argument arrays alone. The 64 tiles cover
  each array (index `i` lies in tile `i / 256` on each tiled axis), so after the region the two arrays ARE those
  functions.
-/
import proofs.«156684_j67095979099194_2_alg».proof.Proof.FrameKernelIdeal
import proofs.«156684_j67095979099194_2_alg».proof.Proof.Tile
import Idealize.ShloMosaic.Lib.ValueLayout
import Idealize.ShloMosaic.Lib.StableHlo.Run

set_option maxRecDepth 16384

noncomputable section

namespace Cert.KernelIdeal.EdgeBlocks

open Cert.KernelIdeal Cert.KernelIdeal.Gen Cert.KernelIdeal.GenP
open Idealize.ShloMosaic Idealize.ShloMosaic.TcCoe Idealize.ShloMosaic.ValueIdx Idealize.SL.Sem
open Idealize.ShloMosaic.StableHlo
open Cert.EdgeSpec Cert.KernelIdeal.EdgeTile Cert.LibColumn
open Idealize.ShloMosaic.Pipeline (Dat)

variable (m : (ℓ : Loc nD τ sig) → Buf (Elt Ideal) ℓ)

/-- The argument arrays on core `c`. -/
abbrev posOf (c : Dev nD) : Pos := m ((c : Thread nD τ).loc main_arg0)
abbrev batchOf (c : Dev nD) : Batch := m ((c : Thread nD τ).loc main_arg1)
abbrev cenOf (c : Dev nD) : Cen := m ((c : Thread nD τ).loc main_arg2)
abbrev widOf (c : Dev nD) : Wid := m ((c : Thread nD τ).loc main_arg3)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the host stages before the region -/

theorem V_v0 (c : Dev nD) :
    (V m c main_v0 : S3x2048.Idx → EReal) = transpose S3x2048 [1, 0] (posOf m c) transposes_S2048x3_S3x2048_1_0 := by
  show StableHlo.after hostOps0 (fun b => m (c, b)) (Proc.devRef .tc main_v0) = _
  after_results

theorem V_v1 (c : Dev nD) :
    (V m c main_v1 : S2048x1.Idx → BitVec 32) = shapeCast S2048x1 (batchOf m c) shapeCasts_S2048_S2048x1 := by
  show StableHlo.after hostOps0 (fun b => m (c, b)) (Proc.devRef .tc main_v1) = _
  after_results; rfl

theorem V_v2 (c : Dev nD) :
    (V m c main_v2 : S1x2048.Idx → BitVec 32) = shapeCast S1x2048 (batchOf m c) shapeCasts_S2048_S1x2048 := by
  show StableHlo.after hostOps0 (fun b => m (c, b)) (Proc.devRef .tc main_v2) = _
  after_results; rfl

theorem V_v3 (c : Dev nD) :
    (V m c main_v3 : S16x1.Idx → EReal) = shapeCast S16x1 (cenOf m c) shapeCasts_S16_S16x1 := by
  show StableHlo.after hostOps0 (fun b => m (c, b)) (Proc.devRef .tc main_v3) = _
  after_results; rfl

theorem V_v7 (c : Dev nD) :
    (V m c main_v7 : S1x1.Idx → EReal)
      = shapeCast S1x1 (Host.divf (constant (F := Ideal) S_ .f32 0x3F800000#32)
          (mulf (mulf (constant (F := Ideal) S_ .f32 0x40000000#32) (widOf m c)) (widOf m c))) shapeCasts_S_S1x1 := by
  show StableHlo.after hostOps0 (fun b => m (c, b)) (Proc.devRef .tc main_v7) = _
  after_results; rfl

/-- A scalar viewed as a 1 × 1 array reads the scalar. -/
theorem scalar_cast_apply {α : Type} (x : S_.Idx → α) (h : S_.ShapeCasts S1x1) (j : S1x1.Idx) :
    shapeCast S1x1 x h j = x ix0 := by
  unfold shapeCast; exact congrArg x (funext fun a => a.elim0)

/-! ## The printed index maps over the grid -/

/-- Decided once over the 64 points: the mask's tile indices are the grid coordinates, both below 8, and every other
    window moves with them or stays at zero. -/
theorem idx_facts : ∀ t : Fin cfg0.N,
    win0_6.index t (0 : Fin 2) = (grid0.coords t (0 : Fin 2)).val ∧ win0_6.index t (1 : Fin 2) = (grid0.coords t (1 : Fin 2)).val
    ∧ win0_6.index t (0 : Fin 2) < 8 ∧ win0_6.index t (1 : Fin 2) < 8
    ∧ win0_0.index t (0 : Fin 2) = win0_6.index t (0 : Fin 2) ∧ win0_0.index t (1 : Fin 2) = 0
    ∧ win0_1.index t (0 : Fin 2) = 0 ∧ win0_1.index t (1 : Fin 2) = win0_6.index t (1 : Fin 2)
    ∧ win0_2.index t (0 : Fin 2) = win0_6.index t (0 : Fin 2) ∧ win0_2.index t (1 : Fin 2) = 0
    ∧ win0_3.index t (0 : Fin 2) = 0 ∧ win0_3.index t (1 : Fin 2) = win0_6.index t (1 : Fin 2)
    ∧ win0_4.index t (0 : Fin 2) = 0 ∧ win0_4.index t (1 : Fin 2) = 0
    ∧ win0_5.index t (0 : Fin 2) = 0 ∧ win0_5.index t (1 : Fin 2) = 0
    ∧ win0_7.index t (0 : Fin 3) = win0_6.index t (0 : Fin 2) ∧ win0_7.index t (1 : Fin 3) = 0
    ∧ win0_7.index t (2 : Fin 3) = win0_6.index t (1 : Fin 2) :=
  (by decide +kernel : ∀ t : Fin grid0.N, _)

/-- Every tile of the mask, and of the features, is some point's. -/
theorem idx_onto6 : ∀ (q0 q1 : Fin 8), ∃ t : Fin cfg0.N, win0_6.index t = ![q0.val, q1.val] :=
  (by decide +kernel : ∀ (q0 q1 : Fin 8), ∃ t : Fin grid0.N, win0_6.index t = ![q0.val, q1.val])
theorem idx_onto7 : ∀ (q0 q1 : Fin 8), ∃ t : Fin cfg0.N, win0_7.index t = ![q0.val, 0, q1.val] :=
  (by decide +kernel : ∀ (q0 q1 : Fin 8), ∃ t : Fin grid0.N, win0_7.index t = ![q0.val, 0, q1.val])

/-- Point `t`'s tile numbers. -/
abbrev tA (t : Fin cfg0.N) : Nat := win0_6.index t (0 : Fin 2)
abbrev tB (t : Fin cfg0.N) : Nat := win0_6.index t (1 : Fin 2)
theorem hA (t : Fin cfg0.N) : tA t < 8 := (idx_facts t).2.2.1
theorem hB (t : Fin cfg0.N) : tB t < 8 := (idx_facts t).2.2.2.1

/-! ## What each input block holds -/

theorem blk0 (c : Dev nD) (t : Fin cfg0.N) (p : Fin 256) (k : Fin 3) :
    iblk m c 0 t (ix2 p k) = posOf m c (ix2 (glob (tA t) (hA t) p) k) := by
  show V m c main_arg0 (((cfg0.win 0).blk t).view.emb (ix2 p k)) = _
  rw [V_main_arg0]
  obtain ⟨-, -, -, -, e0, e1, -⟩ := idx_facts t
  refine congrArg (posOf m c) (funext fun a => Fin.ext ?_)
  match a with
  | ⟨0, _⟩ => show win0_0.index t (0 : Fin 2) * 256 + 1 * p.val = win0_6.index t (0 : Fin 2) * 256 + p.val; omega
  | ⟨1, _⟩ => show win0_0.index t (1 : Fin 2) * 3 + 1 * k.val = k.val; omega

theorem blk1 (c : Dev nD) (t : Fin cfg0.N) (k : Fin 3) (q : Fin 256) :
    iblk m c 1 t (ix2 k q) = posOf m c (ix2 (glob (tB t) (hB t) q) k) := by
  show V m c main_v0 (((cfg0.win 1).blk t).view.emb (ix2 k q)) = _
  obtain ⟨-, -, -, -, -, -, e0, e1, -⟩ := idx_facts t
  have e : ((cfg0.win 1).blk t).view.emb (ix2 k q) = (ix2 k (glob (tB t) (hB t) q) : S3x2048.Idx) :=
    funext fun a => Fin.ext (by
      match a with
      | ⟨0, _⟩ => show win0_1.index t (0 : Fin 2) * 3 + 1 * k.val = k.val; omega
      | ⟨1, _⟩ => show win0_1.index t (1 : Fin 2) * 256 + 1 * q.val = win0_6.index t (1 : Fin 2) * 256 + q.val; omega)
  rw [e, V_v0, transpose_ix2_apply]

theorem blk2 (c : Dev nD) (t : Fin cfg0.N) (p : Fin 256) :
    iblk m c 2 t (ix2 p (0 : Fin 1)) = batchOf m c (ix1 (glob (tA t) (hA t) p)) := by
  show V m c main_v1 (((cfg0.win 2).blk t).view.emb (ix2 p (0 : Fin 1))) = _
  obtain ⟨-, -, -, -, -, -, -, -, e0, e1, -⟩ := idx_facts t
  have e : ((cfg0.win 2).blk t).view.emb (ix2 p (0 : Fin 1)) = (ix2 (glob (tA t) (hA t) p) (0 : Fin 1) : S2048x1.Idx) :=
    funext fun a => Fin.ext (by
      match a with
      | ⟨0, _⟩ => show win0_2.index t (0 : Fin 2) * 256 + 1 * p.val = win0_6.index t (0 : Fin 2) * 256 + p.val; omega
      | ⟨1, _⟩ => show win0_2.index t (1 : Fin 2) * 1 + 1 * 0 = 0; omega)
  rw [e, V_v1, shapeCast_a_a1_apply]

theorem blk3 (c : Dev nD) (t : Fin cfg0.N) (q : Fin 256) :
    iblk m c 3 t (ix2 (0 : Fin 1) q) = batchOf m c (ix1 (glob (tB t) (hB t) q)) := by
  show V m c main_v2 (((cfg0.win 3).blk t).view.emb (ix2 (0 : Fin 1) q)) = _
  obtain ⟨-, -, -, -, -, -, -, -, -, -, e0, e1, -⟩ := idx_facts t
  have e : ((cfg0.win 3).blk t).view.emb (ix2 (0 : Fin 1) q) = (ix2 (0 : Fin 1) (glob (tB t) (hB t) q) : S1x2048.Idx) :=
    funext fun a => Fin.ext (by
      match a with
      | ⟨0, _⟩ => show win0_3.index t (0 : Fin 2) * 1 + 1 * 0 = 0; omega
      | ⟨1, _⟩ => show win0_3.index t (1 : Fin 2) * 256 + 1 * q.val = win0_6.index t (1 : Fin 2) * 256 + q.val; omega)
  rw [e, V_v2, shapeCast_a_1a_apply]

theorem blk4 (c : Dev nD) (t : Fin cfg0.N) (k : Fin 16) :
    iblk m c 4 t (ix2 k (0 : Fin 1)) = cenOf m c (ix1 k) := by
  show V m c main_v3 (((cfg0.win 4).blk t).view.emb (ix2 k (0 : Fin 1))) = _
  obtain ⟨-, -, -, -, -, -, -, -, -, -, -, -, e0, e1, -⟩ := idx_facts t
  have e : ((cfg0.win 4).blk t).view.emb (ix2 k (0 : Fin 1)) = (ix2 k (0 : Fin 1) : S16x1.Idx) :=
    funext fun a => Fin.ext (by
      match a with
      | ⟨0, _⟩ => show win0_4.index t (0 : Fin 2) * 16 + 1 * k.val = k.val; omega
      | ⟨1, _⟩ => show win0_4.index t (1 : Fin 2) * 1 + 1 * 0 = 0; omega)
  rw [e, V_v3, shapeCast_a_a1_apply]

theorem blk5 (c : Dev nD) (t : Fin cfg0.N) :
    iblk m c 5 t (ix2 (0 : Fin 1) (0 : Fin 1))
      = Ideal.div (Ideal.ofBits .f32 0x3F800000#32) (two * widOf m c ix0 * widOf m c ix0) := by
  show V m c main_v7 (((cfg0.win 5).blk t).view.emb (ix2 (0 : Fin 1) (0 : Fin 1))) = _
  rw [V_v7, scalar_cast_apply]
  rfl

/-! ## What each point writes back -/

/-- Point `t` writes back its tile of the mask array. -/
theorem flushed6_eq (c : Dev nD) (t : Fin cfg0.N) :
    (dats m 0 c).flushed 6 t
      = ((cfg0.win 6).blk t).view.read (Elt Ideal) (maskArr (posOf m c) (batchOf m c)) := by
  show (cfg0.win 6).cut (grid0.coords t) ((dats m 0 c).after 6 t) = _
  rw [after0_6]
  unfold out0_6
  rw [View.canon_unit_zero hz2]
  simp only [View.ld_unit_zero (S := S256x3) hz2, View.ld_unit_zero (S := S3x256) hz2,
    View.ld_unit_zero (S := S256x1) hz2, View.ld_unit_zero (S := S1x256) hz2]
  funext j
  obtain ⟨e60, e61, -⟩ := idx_facts t
  show k0_pay2 (F := Ideal) (k0_pay4 (iblk m c 0 t) (iblk m c 1 t)) (k0_pay5 (grid0.coords t)) (k0_pay6 (iblk m c 2 t))
      (k0_pay7 (iblk m c 3 t)) j = maskArr (posOf m c) (batchOf m c) (((cfg0.win 6).blk t).view.emb j)
  refine (mask_tile (posOf m c) (batchOf m c) (tA t) (tB t) (hA t) (hB t) (iblk m c 0 t) (iblk m c 1 t) (iblk m c 2 t)
    (iblk m c 3 t) (blk0 m c t) (blk1 m c t) (blk2 m c t) (blk3 m c t) (grid0.coords t) e60.symm e61.symm j).trans ?_
  unfold maskArr
  have g0 : glob (tA t) (hA t) (j 0) = (((cfg0.win 6).blk t).view.emb j) 0 :=
    Fin.ext (by show win0_6.index t (0 : Fin 2) * 256 + (j 0).val = win0_6.index t (0 : Fin 2) * 256 + 1 * (j 0).val; omega)
  have g1 : glob (tB t) (hB t) (j 1) = (((cfg0.win 6).blk t).view.emb j) 1 :=
    Fin.ext (by show win0_6.index t (1 : Fin 2) * 256 + (j 1).val = win0_6.index t (1 : Fin 2) * 256 + 1 * (j 1).val; omega)
  rw [g0, g1]

/-- An index is in point `t`'s mask tile iff each coordinate is in the tile's range. -/
theorem mem_blk6 (t : Fin cfg0.N) (i : S2048x2048.Idx) :
    i ∈ ((cfg0.win 6).blk t).view.set ↔ ∀ a : Fin 2, win0_6.index t a * S256x256.size a ≤ (i a).val
      ∧ (i a).val < win0_6.index t a * S256x256.size a + S256x256.size a := by
  show i ∈ ((View.whole main_v8_0).slice (win0_6.rect t)).set ↔ _
  rw [View.set_slice_whole, Rect.mem_set_unit]
  exact Iff.rfl

/-- The mask tiles cover the mask array. -/
theorem cover6 (i : S2048x2048.Idx) :
    ∃ t : Fin cfg0.N, (cfg0.win 6).flush t = true ∧ i ∈ ((cfg0.win 6).blk t).view.set := by
  have hi0 : (i 0).val < 2048 := (i 0).isLt
  have hi1 : (i 1).val < 2048 := (i 1).isLt
  obtain ⟨t, ht⟩ := idx_onto6 ⟨(i 0).val / 256, by omega⟩ ⟨(i 1).val / 256, by omega⟩
  have q0 : win0_6.index t (0 : Fin 2) = (i 0).val / 256 := congrFun ht 0
  have q1 : win0_6.index t (1 : Fin 2) = (i 1).val / 256 := congrFun ht 1
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 256 ≤ (i 1).val ∧ (i 1).val < win0_6.index t (1 : Fin 2) * 256 + 256; omega

/-- THE MASK ARRAY after the region. -/
theorem final6 (c : Dev nD) : (dats m 0 c).arrAt 6 cfg0.N = maskArr (posOf m c) (batchOf m c) :=
  (dats m 0 c).arrAt_eq_of_cover 6 (maskArr (posOf m c) (batchOf m c)) (fun t _ => flushed6_eq m c t) cover6

/-- Point `t` writes back its tile of the feature array, for a width that is not zero. -/
theorem flushed7_eq (c : Dev nD) (hw : widOf m c ix0 ≠ 0) (t : Fin cfg0.N) :
    (dats m 0 c).flushed 7 t
      = ((cfg0.win 7).blk t).view.read (Elt Ideal) (rbfArr (posOf m c) (batchOf m c) (cenOf m c) (widOf m c)) := by
  show (cfg0.win 7).cut (grid0.coords t) ((dats m 0 c).after 7 t) = _
  rw [after0_7]
  unfold out0_7
  rw [View.canon_unit_zero hz3]
  simp only [View.ld_unit_zero (S := S256x3) hz2, View.ld_unit_zero (S := S3x256) hz2,
    View.ld_unit_zero (S := S256x1) hz2, View.ld_unit_zero (S := S1x256) hz2,
    View.ld_unit_zero (S := S16x1) hz2, View.ld_unit_zero (S := S1x1) hz2]
  funext j
  obtain ⟨e60, e61, -, -, -, -, -, -, -, -, -, -, -, -, -, -, e70, e71, e72⟩ := idx_facts t
  show k0_pay3 (F := Ideal) (k0_pay4 (iblk m c 0 t) (iblk m c 1 t)) (k0_pay5 (grid0.coords t)) (k0_pay6 (iblk m c 2 t))
      (k0_pay7 (iblk m c 3 t)) (iblk m c 4 t) (iblk m c 5 t) j
    = rbfArr (posOf m c) (batchOf m c) (cenOf m c) (widOf m c) (((cfg0.win 7).blk t).view.emb j)
  refine (rbf_tile (posOf m c) (batchOf m c) (tA t) (tB t) (hA t) (hB t) (iblk m c 0 t) (iblk m c 1 t) (iblk m c 2 t)
    (iblk m c 3 t) (blk0 m c t) (blk1 m c t) (blk2 m c t) (blk3 m c t) (cenOf m c) (widOf m c) (iblk m c 4 t)
    (iblk m c 5 t) (blk4 m c t) (blk5 m c t) hw (grid0.coords t) e60.symm e61.symm j).trans ?_
  unfold rbfArr
  have g0 : glob (tA t) (hA t) (j 0) = (((cfg0.win 7).blk t).view.emb j) 0 :=
    Fin.ext (by show win0_6.index t (0 : Fin 2) * 256 + (j 0).val = win0_7.index t (0 : Fin 3) * 256 + 1 * (j 0).val; omega)
  have g1 : (j 1 : Fin 16) = (((cfg0.win 7).blk t).view.emb j) 1 :=
    Fin.ext (by show (j 1).val = win0_7.index t (1 : Fin 3) * 16 + 1 * (j 1).val; omega)
  have g2 : glob (tB t) (hB t) (j 2) = (((cfg0.win 7).blk t).view.emb j) 2 :=
    Fin.ext (by show win0_6.index t (1 : Fin 2) * 256 + (j 2).val = win0_7.index t (2 : Fin 3) * 256 + 1 * (j 2).val; omega)
  rw [g0, g1, g2]

/-- An index is in point `t`'s feature tile iff each coordinate is in the tile's range. -/
theorem mem_blk7 (t : Fin cfg0.N) (i : S2048x16x2048.Idx) :
    i ∈ ((cfg0.win 7).blk t).view.set ↔ ∀ a : Fin 3, win0_7.index t a * S256x16x256.size a ≤ (i a).val
      ∧ (i a).val < win0_7.index t a * S256x16x256.size a + S256x16x256.size a := by
  show i ∈ ((View.whole main_v8_1).slice (win0_7.rect t)).set ↔ _
  rw [View.set_slice_whole, Rect.mem_set_unit]
  exact Iff.rfl

/-- The feature tiles cover the feature array. -/
theorem cover7 (i : S2048x16x2048.Idx) :
    ∃ t : Fin cfg0.N, (cfg0.win 7).flush t = true ∧ i ∈ ((cfg0.win 7).blk t).view.set := by
  have hi0 : (i 0).val < 2048 := (i 0).isLt
  have hi1 : (i 1).val < 16 := (i 1).isLt
  have hi2 : (i 2).val < 2048 := (i 2).isLt
  obtain ⟨t, ht⟩ := idx_onto7 ⟨(i 0).val / 256, by omega⟩ ⟨(i 2).val / 256, by omega⟩
  have q0 : win0_7.index t (0 : Fin 3) = (i 0).val / 256 := congrFun ht 0
  have q1 : win0_7.index t (1 : Fin 3) = 0 := congrFun ht 1
  have q2 : win0_7.index t (2 : Fin 3) = (i 2).val / 256 := congrFun ht 2
  refine ⟨t, flush0_7 t, ?_⟩
  rw [mem_blk7]
  intro a
  match a with
  | ⟨0, _⟩ => show win0_7.index t (0 : Fin 3) * 256 ≤ (i 0).val ∧ (i 0).val < win0_7.index t (0 : Fin 3) * 256 + 256; omega
  | ⟨1, _⟩ => show win0_7.index t (1 : Fin 3) * 16 ≤ (i 1).val ∧ (i 1).val < win0_7.index t (1 : Fin 3) * 16 + 16; omega
  | ⟨2, _⟩ => show win0_7.index t (2 : Fin 3) * 256 ≤ (i 2).val ∧ (i 2).val < win0_7.index t (2 : Fin 3) * 256 + 256; omega

/-- THE FEATURE ARRAY after the region, for a width that is not zero. -/
theorem final7 (c : Dev nD) (hw : widOf m c ix0 ≠ 0) :
    (dats m 0 c).arrAt 7 cfg0.N = rbfArr (posOf m c) (batchOf m c) (cenOf m c) (widOf m c) :=
  (dats m 0 c).arrAt_eq_of_cover 7 (rbfArr (posOf m c) (batchOf m c) (cenOf m c) (widOf m c))
    (fun t _ => flushed7_eq m c hw t) cover7

end Cert.KernelIdeal.EdgeBlocks

end
-- ==== Proof.Results.lean ====
/-
  The two results as whole arrays: the edge mask at (a, b), and the radial features at (a, b, k) with the feature index
  last — the layout both programs return.
-/
import proofs.«156684_j67095979099194_2_alg».proof.Proof.Spec

noncomputable section

namespace Cert.EdgeSpec

open Idealize.ShloMosaic Idealize.ShloMosaic.ValueIdx

/-- The edge mask. -/
def edgeOut (pos : Pos) (batch : Batch) : (⟨2, ![2048, 2048]⟩ : Shape).Idx → BitVec 1 :=
  fun i => edge pos batch (i 0) (i 1)

/-- The radial features, feature index last. -/
def rbfOut (pos : Pos) (batch : Batch) (cen : Cen) (wid : Wid) : (⟨3, ![2048, 2048, 16]⟩ : Shape).Idx → EReal :=
  fun i => rbf pos batch cen wid (i 0) (i 1) (i 2)

end Cert.EdgeSpec

end
-- ==== Proof.KernelRun.lean ====
/-
  The kernel's program, run: its two results as functions of its arguments.

  After the region the host turns the 32-bit mask array back into bits (an entry is set iff its word is not zero: the
  word is the edge bit widened, so this is the edge bit) and moves the features' middle axis last (entry (a, b, k) of the
  result is entry (a, k, b) of the feature array). With the two arrays the region leaves, the results are the
  specification's edge mask and radial features — the second for a width that is not zero.
-/
import proofs.«156684_j67095979099194_2_alg».proof.Proof.Blocks
import proofs.«156684_j67095979099194_2_alg».proof.Proof.Results
import Idealize.ShloMosaic.Lib.IdealHost

set_option maxRecDepth 16384

noncomputable section

namespace Cert.KernelIdeal.EdgeRun

open Cert.KernelIdeal Cert.KernelIdeal.Gen Cert.KernelIdeal.GenP
open Idealize.ShloMosaic Idealize.ShloMosaic.TcCoe Idealize.ShloMosaic.ValueIdx Idealize.SL.Sem
open Idealize.ShloMosaic.StableHlo
open Cert.EdgeSpec Cert.KernelIdeal.EdgeTile Cert.KernelIdeal.EdgeBlocks
open Idealize.ShloMosaic.Pipeline (Dat)

variable (m : (ℓ : Loc nD τ sig) → Buf (Elt Ideal) ℓ) (ρ : Dev nD → PrngReg)

/-- The mask the program returns. -/
theorem tail_v11 (c : Dev nD) :
    Pipeline.afterTail₀ cfgs (dats m) 0 (V0 m) [hostOps1] c main_v11 = edgeOut (posOf m c) (batchOf m c) := by
  unfold Pipeline.afterTail₀
  show StableHlo.after hostOps1 _ (Proc.devRef .tc main_v11) = _
  after_results
  rw [show Pipeline.withArrays spec0 c (V0 m c) (fun w => (dats m 0 c).arrAt w cfg0.N) (Proc.devRef .tc main_v8_0)
      = maskArr (posOf m c) (batchOf m c) from
    (Pipeline.withArrays_arr spec0 launch0.win.arr_inj c _ _ 6).trans (final6 m c)]
  funext i
  show IntOp.cmpi .ne ((edge (posOf m c) (batchOf m c) (i 0) (i 1)).setWidth 32)
    (broadcastInDim S2048x2048 ![] bcast_S_S2048x2048 (constantI S_ 32 0#32) i) = _
  rw [broadcastInDim_scalar_apply]
  exact widened_ne_zero _

/-- The features the program returns, for a width that is not zero. -/
theorem tail_v12 (c : Dev nD) (hw : widOf m c ix0 ≠ 0) :
    Pipeline.afterTail₀ cfgs (dats m) 0 (V0 m) [hostOps1] c main_v12
      = rbfOut (posOf m c) (batchOf m c) (cenOf m c) (widOf m c) := by
  unfold Pipeline.afterTail₀
  show StableHlo.after hostOps1 _ (Proc.devRef .tc main_v12) = _
  after_results
  rw [show Pipeline.withArrays spec0 c (V0 m c) (fun w => (dats m 0 c).arrAt w cfg0.N) (Proc.devRef .tc main_v8_1)
      = rbfArr (posOf m c) (batchOf m c) (cenOf m c) (widOf m c) from
    (Pipeline.withArrays_arr spec0 launch0.win.arr_inj c _ _ 7).trans (final7 m c hw)]
  funext i
  obtain ⟨a, b, k, rfl⟩ : ∃ (a b : Fin 2048) (k : Fin 16), i = ix3 a b k := ⟨i 0, i 1, i 2, eq_ix3 i⟩
  show transpose S2048x2048x16 [0, 2, 1] (rbfArr (posOf m c) (batchOf m c) (cenOf m c) (widOf m c))
    transposes_S2048x16x2048_S2048x2048x16_0_2_1 (ix3 a b k) = _
  rw [transpose_ix3_021_apply]
  rfl

/-- THE RUN: every weakly fair execution terminates with the two results at the specification's arrays of the
    arguments, and the arguments unchanged — for a width that is not zero on every core. -/
theorem run (hw : ∀ c : Dev nD, widOf m c ix0 ≠ 0) :
    θ_run defs (onTc (τ := τ) (main (F := Ideal))) ⟨m, fun _ => 0, ρ⟩ (fun r => ∀ c : Dev nD,
      r.2.mem ((c.tc : Thread nD τ).loc main_v11) = edgeOut (posOf m c) (batchOf m c)
      ∧ r.2.mem ((c.tc : Thread nD τ).loc main_v12) = rbfOut (posOf m c) (batchOf m c) (cenOf m c) (widOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v11 (Pipeline.mem_restRefs_of main_v11 (by decide) (by decide))).trans (tail_v11 m c),
      ((h c).2 main_v12 (Pipeline.mem_restRefs_of main_v12 (by decide) (by decide))).trans (tail_v12 m c (hw c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.EdgeRun

end
-- ==== Proof.RefIsSpec.lean ====
/-
  The reference computes the specification. Read one operation at a time, its distance array at (a, b) is the root of
  the three squared displacements, its edge mask at (a, b) is the conjunction of the three tests, and its feature
  array at (a, b, k) is the Gaussian of the distance about center k divided by 2 w², times the edge bit.

  Nothing here is arithmetic: each broadcast reads its operand at the evident coordinates, the host's sum over the
  three axes is the three-term sum from zero, and the host's square root, exponential, quotient and negation are the
  ideal instance's.
-/
import proofs.«156684_j67095979099194_2_alg».proof.Proof.Gen.ReferenceIdeal.Read
import proofs.«156684_j67095979099194_2_alg».proof.Proof.Spec

noncomputable section

namespace Cert.ReferenceIdeal.RefValue

open Cert.ReferenceIdeal Cert.ReferenceIdeal.Read Idealize.ShloMosaic Idealize.ShloMosaic.ValueIdx Cert.EdgeSpec

/-- The displacement array at (a, b, k). -/
theorem ref_dcomp (pos : Pos) (a b : Fin 2048) (k : Fin 3) :
    val_main_v7 (F := Ideal) pos (ix3 a b k) = dcomp pos a b k := by
  rw [val_main_v7_apply, val_main_v5_apply, val_main_v6_apply, val_main_cst_apply, val_main_v3_apply,
    val_main_v4_apply, val_main_v1_apply, val_main_v2_apply]
  have e1 : idx_main_v1 (idx_main_v3 (ix3 a b k)) = ix2 a k :=
    funext fun d => Fin.ext (by match d with | ⟨0, _⟩ => rfl | ⟨1, _⟩ => rfl)
  have e2 : idx_main_v2 (idx_main_v4 (ix3 a b k)) = ix2 b k :=
    funext fun d => Fin.ext (by match d with | ⟨0, _⟩ => rfl | ⟨1, _⟩ => rfl)
  rw [e1, e2]
  rfl

/-- The distance array at (a, b): the host's sum over the last axis is the three squares from zero. -/
theorem ref_dist (pos : Pos) (a b : Fin 2048) : val_main_v10 (F := Ideal) pos (ix2 a b) = dist pos a b := by
  rw [val_main_v10_apply, val_main_v9_apply, val_main_cst_0_apply, Fin.sum_univ_three]
  have e : ∀ k : Fin 3, idx_main_v9 (ix2 a b) k = ix3 a b k := fun k =>
    funext fun d => Fin.ext (by match d with | ⟨0, _⟩ => rfl | ⟨1, _⟩ => rfl | ⟨2, _⟩ => rfl)
  rw [e 0, e 1, e 2, val_main_v8_apply, val_main_v8_apply, val_main_v8_apply, ref_dcomp, ref_dcomp, ref_dcomp]
  simp only [Ideal.hostUnary_sqrt_def, Ideal.mulf_def, Ideal.ofBits_def, Ideal.ofBits_zero_f32, zero_add]
  rfl

/-- The edge mask at (a, b). -/
theorem ref_edge (pos : Pos) (batch : Batch) (a b : Fin 2048) :
    val_main_v24 (F := Ideal) pos batch (ix2 a b) = edge pos batch a b := by
  rw [val_main_v24_apply, val_main_v21_apply, val_main_v15_apply, val_main_v20_apply, val_main_v23_apply,
    val_main_v13_apply, val_main_v14_apply, val_main_v11_apply, val_main_v12_apply, val_main_v0_apply, val_main_v0_apply,
    val_main_v18_apply, val_main_v19_apply, val_main_v16_apply, val_main_v17_apply,
    val_main_v22_apply, val_main_cst_1_apply, ref_dist]
  have e1 : idx_main_v16 (idx_main_v18 (ix2 a b)) = ix1 a :=
    funext fun d => Fin.ext (by match d with | ⟨0, _⟩ => rfl)
  have e2 : idx_main_v17 (idx_main_v19 (ix2 a b)) = ix1 b :=
    funext fun d => Fin.ext (by match d with | ⟨0, _⟩ => rfl)
  rw [e1, e2]
  rfl

/-- The feature array at (a, b, k). -/
theorem ref_rbf (pos : Pos) (batch : Batch) (cen : Cen) (wid : Wid) (a b : Fin 2048) (k : Fin 16) :
    val_main_v40 (F := Ideal) pos batch cen wid (ix3 a b k) = rbf pos batch cen wid a b k := by
  rw [val_main_v40_apply, val_main_v36_apply, val_main_v35_apply, val_main_v31_apply, val_main_v30_apply,
    val_main_v29_apply, val_main_v27_apply, val_main_v25_apply, val_main_v28_apply, val_main_v26_apply,
    val_main_v34_apply, val_main_v33_apply, val_main_v32_apply, val_main_cst_2_apply,
    val_main_v39_apply, val_main_v38_apply, val_main_v37_apply]
  have e1 : idx_main_v25 (idx_main_v27 (ix3 a b k)) = ix2 a b :=
    funext fun d => Fin.ext (by match d with | ⟨0, _⟩ => rfl | ⟨1, _⟩ => rfl)
  have e2 : idx_main_v26 (idx_main_v28 (ix3 a b k)) = ix1 k :=
    funext fun d => Fin.ext (by match d with | ⟨0, _⟩ => rfl)
  have e3 : idx_main_v37 (idx_main_v39 (ix3 a b k)) = ix2 a b :=
    funext fun d => Fin.ext (by match d with | ⟨0, _⟩ => rfl | ⟨1, _⟩ => rfl)
  have e4 : idx_main_v34 (ix3 a b k) = ix0 := funext fun d => d.elim0
  rw [e1, e2, e3, e4, ref_dist, ref_edge]
  rfl

end Cert.ReferenceIdeal.RefValue

end
-- ==== Proof.RefResults.lean ====
/-
  The reference's two result arrays are the specification's, entry by entry.
-/
import proofs.«156684_j67095979099194_2_alg».proof.Proof.RefIsSpec
import proofs.«156684_j67095979099194_2_alg».proof.Proof.Results

noncomputable section

namespace Cert.ReferenceIdeal.RefValue

open Cert.ReferenceIdeal Cert.ReferenceIdeal.Read Idealize.ShloMosaic Idealize.ShloMosaic.ValueIdx Cert.EdgeSpec

theorem ref_edge_arr (pos : Pos) (batch : Batch) : val_main_v24 (F := Ideal) pos batch = edgeOut pos batch :=
  funext fun i => by
    obtain ⟨a, b, rfl⟩ : ∃ (a b : Fin 2048), i = ix2 a b := ⟨i 0, i 1, eq_ix2 i⟩
    exact ref_edge pos batch a b

theorem ref_rbf_arr (pos : Pos) (batch : Batch) (cen : Cen) (wid : Wid) :
    val_main_v40 (F := Ideal) pos batch cen wid = rbfOut pos batch cen wid :=
  funext fun i => by
    obtain ⟨a, b, k, rfl⟩ : ∃ (a b : Fin 2048) (k : Fin 16), i = ix3 a b k := ⟨i 0, i 1, i 2, eq_ix3 i⟩
    exact ref_rbf pos batch cen wid a b k

end Cert.ReferenceIdeal.RefValue

end
-- ==== Proof.PreDecode.lean ====
/-
  What the precondition gives the proof: the width is not zero.

  The precondition is a conjunction of four tests, the last of which is "every entry of `width ≠ 0`" over the scalar's
  one entry. If the conjunction is 1 then so is its last conjunct; an all-of over one entry that is 1 says the entry's
  test is 1; and on the extended reals the test `w ≠ 0` is 1 only when `w ≠ 0`. (The three finiteness conjuncts are not
  used: the law that joins the two programs needs only a divisor that is not zero.)
-/
import proofs.«156684_j67095979099194_2_alg».proof.Pre_finite_inputs
import proofs.«156684_j67095979099194_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.PreDecode

open Idealize.ShloMosaic Idealize.ShloMosaic.ValueIdx Cert.Pre_finite_inputs

instance : Subsingleton S_.Idx := ⟨fun a b => funext fun d => d.elim0⟩

/-- The precondition, all ones, makes the width's one entry a nonzero extended real. -/
theorem width_ne_zero (x0 : FVec Ideal S2048x3 .f32) (x1 : IVec S2048 32) (x2 : FVec Ideal S16 .f32)
    (x3 : FVec Ideal S_ .f32) (h : fn (F := Ideal) x0 x1 x2 x3 = fun _ => 1#1) : x3 ix0 ≠ 0 := by
  have h0 : fn (F := Ideal) x0 x1 x2 x3 ix0 = 1#1 := congrFun h ix0
  dsimp only [fn] at h0
  have h14 := (IntOp.andi_eq_one.1 h0).2
  have hx := Host.reduce_andi_all _ _ _ _ _ h14 ix0
  intro hw
  have hc : Ideal.cmp .une (x3 ix0) (Ideal.ofBits .f32 0x00000000#32) = 1#1 := hx
  rw [Ideal.ofBits_zero_f32, hw] at hc
  simp [Ideal.cmp] at hc

end Cert.PreDecode

end
-- ==== Proof.lean ====
/-
  The certificate: an all-pairs radius-graph kernel against its jnp reference, on the extended reals.

  Both programs take 2048 points in ℝ³, a graph id per point, 16 centers and a width w, and return, for every ordered
  pair (a, b): the edge bit — a ≠ b, the same graph id, and distance below 8, the distance being the root of the three
  squared displacements `pos[a,k] - pos[b,k] + ε` — and the 16 radial features `exp (-(dist - c_k)² / (2 w²)) · bit`.

  The kernel tiles the pairs 8 × 8 in tiles of 256 × 256, computes the distance from a block of the points and a block of
  the transposed points, tests the diagonal with the tile's own position, and multiplies by a scale `1 / ((2 w) w)` the
  host computed, where the reference divides by `2 (w w)`; it lays the features out with the center index in the middle
  and the host moves it last, and it returns the mask as 32-bit words the host turns back into bits.

  At the ideal instance the two agree entry by entry exactly when the divisor is not zero: `x · (1 / y) = x / y` for
  `y ≠ 0`, while at `w = 0` the kernel's `0 · ⊤ = 0` meets the reference's `0 / 0 = ⊥` wherever the distance equals a
  center. The precondition therefore carries `width ≠ 0` beside the finiteness of the float inputs, and the proof uses that
  conjunct and nothing else of it.

  The modules: the specification and its laws (Spec, Results); the reference is the specification (RefIsSpec,
  RefResults, over the generated run of the reference read one operation at a time); the kernel's arithmetic at an
  entry of a tile (Payload, over LibColumn and LibMiddleAxis) and the tile against the specification (Tile); the tiles
  cover the two arrays (Blocks); the host's last two operations and the run (KernelRun); the width is not zero
  (PreDecode). The three frames are the generated frame proofs; the claim that the idealized kernel is the kernel's
  idealization is stated as `True` (the statement records no rewrite), so it is proved by `trivial`.
-/
import proofs.«156684_j67095979099194_2_alg».proof.Defs
import proofs.«156684_j67095979099194_2_alg».proof.Proof.Gen.Kernel
import proofs.«156684_j67095979099194_2_alg».proof.Proof.Gen.Kernel.Skeleton
import proofs.«156684_j67095979099194_2_alg».proof.Proof.Gen.Kernel.Launch
import proofs.«156684_j67095979099194_2_alg».proof.Proof.Gen.Kernel.Points
import proofs.«156684_j67095979099194_2_alg».proof.Proof.FrameKernel
import proofs.«156684_j67095979099194_2_alg».proof.Proof.Gen.KernelIdeal
import proofs.«156684_j67095979099194_2_alg».proof.Proof.Gen.KernelIdeal.Skeleton
import proofs.«156684_j67095979099194_2_alg».proof.Proof.Gen.KernelIdeal.Launch
import proofs.«156684_j67095979099194_2_alg».proof.Proof.Gen.KernelIdeal.Points
import proofs.«156684_j67095979099194_2_alg».proof.Proof.FrameKernelIdeal
import proofs.«156684_j67095979099194_2_alg».proof.Proof.Gen.ReferenceIdeal
import proofs.«156684_j67095979099194_2_alg».proof.Proof.Gen.Pre_finite_inputs
import proofs.«156684_j67095979099194_2_alg».proof.Proof.Gen.ReferenceIdeal.Run
import proofs.«156684_j67095979099194_2_alg».proof.Proof.Gen.ReferenceIdeal.Read
import proofs.«156684_j67095979099194_2_alg».proof.Proof.KernelRun
import proofs.«156684_j67095979099194_2_alg».proof.Proof.RefResults
import proofs.«156684_j67095979099194_2_alg».proof.Proof.PreDecode
import Idealize.ShloMosaic.Adequacy
import Idealize.ShloMosaic.Init

noncomputable section

namespace Cert.Proof

open Idealize.ShloMosaic Idealize.ShloMosaic.ValueIdx Idealize.SL.Sem
open Cert.EdgeSpec Cert.KernelIdeal.EdgeBlocks

/-- The word-level kernel runs, faults nowhere, and leaves its arguments as they were. -/
theorem frame_k : Cert.frame_Kernel := fun m ρ _ => Cert.Kernel.GenP.frame m ρ

/-- So does the kernel read at the ideal instance. -/
theorem frame_ki : Cert.frame_KernelIdeal := fun m ρ _ => Cert.KernelIdeal.GenP.frame m ρ

/-- And the reference: its run, with the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- From memories that agree on the arguments the two programs end with the same mask and the same features: the
    specification's, of those arguments. The width is not zero by the precondition. -/
theorem algebraic : Cert.algebraic_KernelIdeal_ReferenceIdeal := by
  intro m ρ m' ρ' hpre hagree
  have hw : ∀ c : Dev Cert.KernelIdeal.nD, widOf m c ix0 ≠ 0 := fun c =>
    Cert.PreDecode.width_ne_zero _ _ _ _ (hpre c)
  refine ⟨fun c => edgeOut (posOf m c) (batchOf m c),
    fun c => rbfOut (posOf m c) (batchOf m c) (cenOf m c) (widOf m c),
    Cert.KernelIdeal.EdgeRun.run m ρ hw, ?_⟩
  refine (θ_run Cert.ReferenceIdeal.defs _ _).mono (fun r h c => ⟨?_, ?_, (h c).2.2⟩)
    (Cert.ReferenceIdeal.Value.run (F := Ideal) m' ρ')
  · refine ((h c).1.trans (Cert.ReferenceIdeal.Read.val_main_v24_eq (F := Ideal) _ _)).trans ?_
    rw [(hagree c).1, (hagree c).2.1]
    exact Cert.ReferenceIdeal.RefValue.ref_edge_arr _ _
  · refine ((h c).2.1.trans (Cert.ReferenceIdeal.Read.val_main_v40_eq (F := Ideal) m' c)).trans ?_
    rw [(hagree c).1, (hagree c).2.1, (hagree c).2.2.1, (hagree c).2.2.2]
    exact Cert.ReferenceIdeal.RefValue.ref_rbf_arr _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
